-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000x64 : Shape := ⟨2, ![800000, 64]⟩
abbrev S320x512 : Shape := ⟨2, ![320, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S320x512 : S_.BroadcastsInDim S320x512 (![] : Fin 0 → Fin S320x512.rank)
  reducesTo_S320x512_S_d0_1 : S320x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S512x256 .f32) (main_arg6 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x256 .f32 := Host.absf main_arg5
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S50000x256 .f32) (main_arg1 : IVec S2x800000 32) (main_arg2 : FVec F S800000x64 .f32) (main_arg3 : FVec F S320x512 .f32) (main_arg4 : FVec F S512 .f32) (main_arg5 : FVec F S512x256 .f32) (main_arg6 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S320x512 .f32 := Host.absf main_arg3
  let main_cst_2 : FVec F S_ .f32 := constant S_ .f32 0x7F800000#32
  let main_v10 : FVec F S320x512 .f32 := broadcastInDim S320x512 ![] bcast_S_S320x512 main_cst_2
  let main_v11 : IVec S320x512 1 := cmpf .olt main_v9 main_v10
  let main_c_3 : IVec S_ 1 := constantI S_ 1 1#1
  let main_v12 : IVec S_ 1 := (fun x v => Host.reduce IntOp.andi x v reducesTo_S320x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_v13 main_v16
-- ==== Kernel.lean ====
abbrev S50000x256 : Shape := ⟨2, ![50000, 256]⟩
abbrev S2x800000 : Shape := ⟨2, ![2, 800000]⟩
abbrev S800000x64 : Shape := ⟨2, ![800000, 64]⟩
abbrev S320x512 : Shape := ⟨2, ![320, 512]⟩
abbrev S512 : Shape := ⟨1, ![512]⟩
abbrev S512x256 : Shape := ⟨2, ![512, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S50000x64 : Shape := ⟨2, ![50000, 64]⟩
abbrev S800000x1 : Shape := ⟨2, ![800000, 1]⟩
abbrev S50000 : Shape := ⟨1, ![50000]⟩
abbrev S50000x1 : Shape := ⟨2, ![50000, 1]⟩
abbrev S64x512 : Shape := ⟨2, ![64, 512]⟩
abbrev S256x512 : Shape := ⟨2, ![256, 512]⟩
abbrev S1x512 : Shape := ⟨2, ![1, 512]⟩
abbrev S1x256 : Shape := ⟨2, ![1, 256]⟩
abbrev S2000x64 : Shape := ⟨2, ![2000, 64]⟩
abbrev S2000x256 : Shape := ⟨2, ![2000, 256]⟩
abbrev S2000x1 : Shape := ⟨2, ![2000, 1]⟩
abbrev S2000x512 : Shape := ⟨2, ![2000, 512]⟩

abbrev nBuf : Space → Nat
  | .hbm => 28
  | .vmem => 13
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000x64, .f32⟩
  | .hbm, ⟨3, _⟩ => ⟨S320x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S50000x64, .f32⟩
  | .hbm, ⟨11, _⟩ => ⟨S800000x1, .i32⟩
  | .hbm, ⟨12, _⟩ => ⟨S50000x64, .f32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S50000x1, .f32⟩
  | .hbm, ⟨20, _⟩ => ⟨S64x512, .f32⟩
  | .hbm, ⟨21, _⟩ => ⟨S64x512, .bf16⟩
  | .hbm, ⟨22, _⟩ => ⟨S256x512, .f32⟩
  | .hbm, ⟨23, _⟩ => ⟨S256x512, .bf16⟩
  | .hbm, ⟨24, _⟩ => ⟨S512x256, .bf16⟩
  | .hbm, ⟨25, _⟩ => ⟨S1x512, .f32⟩
  | .hbm, ⟨26, _⟩ => ⟨S1x256, .f32⟩
  | .hbm, ⟨27, _⟩ => ⟨S50000x256, .f32⟩
  | .local _ .vmem, ⟨0, _⟩ => ⟨S2000x64, .f32⟩
  | .local _ .vmem, ⟨1, _⟩ => ⟨S2000x64, .f32⟩
  | .local _ .vmem, ⟨2, _⟩ => ⟨S2000x256, .f32⟩
  | .local _ .vmem, ⟨3, _⟩ => ⟨S2000x256, .f32⟩
  | .local _ .vmem, ⟨4, _⟩ => ⟨S2000x1, .f32⟩
  | .local _ .vmem, ⟨5, _⟩ => ⟨S2000x1, .f32⟩
  | .local _ .vmem, ⟨6, _⟩ => ⟨S64x512, .bf16⟩
  | .local _ .vmem, ⟨7, _⟩ => ⟨S256x512, .bf16⟩
  | .local _ .vmem, ⟨8, _⟩ => ⟨S1x512, .f32⟩
  | .local _ .vmem, ⟨9, _⟩ => ⟨S512x256, .bf16⟩
  | .local _ .vmem, ⟨10, _⟩ => ⟨S1x256, .f32⟩
  | .local _ .vmem, ⟨11, _⟩ => ⟨S2000x256, .f32⟩
  | .local _ .vmem, ⟨12, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x800000_S1x800000_1_0 : S2x800000.Slices ![1, 0] S1x800000
  shapeCasts_S1x800000_S800000 : S1x800000.ShapeCasts S800000
  bcast_S_S50000x64 : S_.BroadcastsInDim S50000x64 (![] : Fin 0 → Fin S50000x64.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000 : S_.BroadcastsInDim S50000 (![] : Fin 0 → Fin S50000.rank)
  bcast_S50000_S50000x1_0 : S50000.BroadcastsInDim S50000x1 (![0] : Fin 1 → Fin S50000x1.rank)
  slices_S320x512_S64x512_0_0 : S320x512.Slices ![0, 0] S64x512
  bitsLt_bf16_f32 : FTy.bits .bf16 < FTy.bits .f32
  slices_S320x512_S256x512_64_0 : S320x512.Slices ![64, 0] S256x512
  bcast_S512_S1x512_1 : S512.BroadcastsInDim S1x512 (![1] : Fin 1 → Fin S1x512.rank)
  bcast_S256_S1x256_1 : S256.BroadcastsInDim S1x256 (![1] : Fin 1 → Fin S1x256.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S2000x1_S2000x64 : S2000x1.Broadcasts S2000x64
  inb_S2000x256_S2000x256_0_0 : ∀ a, (![0, 0] : Fin 2 → Nat) a + S2000x256.size a ≤ S2000x256.size a
  h_S2000x256 : 0 < S2000x256.numel
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S2000x64_S64x512_S2000x512_1_0_0_1_n_n_wf : DotDims.WF S2000x64 S64x512 S2000x512 [1] [0] [0] [1] [] []
  dot_S2000x256_S256x512_S2000x512_1_0_0_1_n_n_wf : DotDims.WF S2000x256 S256x512 S2000x512 [1] [0] [0] [1] [] []
  dot_S2000x512_S512x256_S2000x256_1_0_0_1_n_n_wf : DotDims.WF S2000x512 S512x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x512.size a
  hwx0_3 : ∀ i : grid0.Coords, EltTy.bits .bf16 = 32 ∨ (Rect.block (s := S64x512) S64x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .bf16 = 32 ∨ (Rect.block (s := S256x512) S256x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x256.size a
  hwx0_6 : ∀ i : grid0.Coords, EltTy.bits .bf16 = 32 ∨ (Rect.block (s := S512x256) S512x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x256.size a ≤ S50000x256.size a
  hwx0_8 : ∀ i : grid0.Coords, EltTy.bits .f32 = 32 ∨ (Rect.block (s := S50000x256) S2000x256.size (cc0_transform_8 i) (hinb0_8 i)).WholeWords (EltTy.packing .f32)

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x64_S64x512_S2000x512_1_0_0_1_n_n : DotDims S2000x64 S64x512 S2000x512 where
  lhsContracting := [1]
  rhsContracting := [0]
  lhsNonContracting := [0]
  rhsNonContracting := [1]
  lhsBatch := []
  rhsBatch := []
  wf := dot_S2000x64_S64x512_S2000x512_1_0_0_1_n_n_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf

abbrev win0_0 : Pipeline.Window sig grid0 :=
  Pipeline.Window.ofSpec (Memref.whole main_v4) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S64x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S512x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S2000x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000x64 : Shape := ⟨2, ![800000, 64]⟩
abbrev S320x512 : Shape := ⟨2, ![320, 512]⟩
abbrev S512 : Shape := ⟨1, ![512]⟩
abbrev S512x256 : Shape := ⟨2, ![512, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S50000x64 : Shape := ⟨2, ![50000, 64]⟩
abbrev S800000x1 : Shape := ⟨2, ![800000, 1]⟩
abbrev S50000 : Shape := ⟨1, ![50000]⟩
abbrev S50000x1 : Shape := ⟨2, ![50000, 1]⟩
abbrev S50000x320 : Shape := ⟨2, ![50000, 320]⟩
abbrev S50000x512 : Shape := ⟨2, ![50000, 512]⟩
abbrev S1x512 : Shape := ⟨2, ![1, 512]⟩
abbrev S1x256 : Shape := ⟨2, ![1, 256]⟩

abbrev nBuf : Space → Nat
  | .hbm => 37
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000x64, .f32⟩
  | .hbm, ⟨3, _⟩ => ⟨S320x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S50000x64, .f32⟩
  | .hbm, ⟨11, _⟩ => ⟨S800000x1, .i32⟩
  | .hbm, ⟨12, _⟩ => ⟨S50000x64, .f32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S50000x64, .f32⟩
  | .hbm, ⟨24, _⟩ => ⟨S50000x64, .f32⟩
  | .hbm, ⟨25, _⟩ => ⟨S50000x320, .f32⟩
  | .hbm, ⟨26, _⟩ => ⟨S50000x512, .f32⟩
  | .hbm, ⟨27, _⟩ => ⟨S1x512, .f32⟩
  | .hbm, ⟨28, _⟩ => ⟨S50000x512, .f32⟩
  | .hbm, ⟨29, _⟩ => ⟨S50000x512, .f32⟩
  | .hbm, ⟨30, _⟩ => ⟨S_, .f32⟩
  | .hbm, ⟨31, _⟩ => ⟨S50000x512, .f32⟩
  | .hbm, ⟨32, _⟩ => ⟨S50000x512, .f32⟩
  | .hbm, ⟨33, _⟩ => ⟨S50000x256, .f32⟩
  | .hbm, ⟨34, _⟩ => ⟨S1x256, .f32⟩
  | .hbm, ⟨35, _⟩ => ⟨S50000x256, .f32⟩
  | .hbm, ⟨36, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  slices_S2x800000_S1x800000_1_0 : S2x800000.Slices ![1, 0] S1x800000
  shapeCasts_S1x800000_S800000 : S1x800000.ShapeCasts S800000
  bcast_S_S50000x64 : S_.BroadcastsInDim S50000x64 (![] : Fin 0 → Fin S50000x64.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x256_S50000x320_d1 : Shape.Concatenates [S50000x64, S50000x256] S50000x320 1
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x320_S320x512_S50000x512_1_0_0_1_n_n_wf : DotDims.WF S50000x320 S320x512 S50000x512 [1] [0] [0] [1] [] []
  dot_S50000x512_S512x256_S50000x256_1_0_0_1_n_n_wf : DotDims.WF S50000x512 S512x256 S50000x256 [1] [0] [0] [1] [] []

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x320_S320x512_S50000x512_1_0_0_1_n_n : DotDims S50000x320 S320x512 S50000x512 where
  lhsContracting := [1]
  rhsContracting := [0]
  lhsNonContracting := [0]
  rhsNonContracting := [1]
  lhsBatch := []
  rhsBatch := []
  wf := dot_S50000x320_S320x512_S50000x512_1_0_0_1_n_n_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf

class Facts : Prop extends Facts₀ where

variable [Facts]
-- ==== Proof.LibDenseRows.lean ====
import Idealize.ShloMosaic.PureOps.Ideal
import Idealize.ShloMosaic.PureOps.Ideal.Laws
import Idealize.ShloMosaic.Lib.ValueIdx
import Idealize.ShloMosaic.Lib.Pipeline.Value

/-!
# Rows of a dense layer, read entry by entry

General facts, at any extents, that a dense layer followed by a row-wise softmax meets:

* `col_cast_apply`: a length-`a` vector re-laid as a column `[a, 1]` has the vector's entry `r` at `(r, 0)`;
* `col_bcast_apply`: a column `[a, 1]` repeated along `b` columns has the column's entry `(r, 0)` at every `(r, c)`;
* `matmul_rows_apply`: the product of an `[a, k]` matrix and a `[k, b]` matrix accumulated into zero is, at `(r, c)`,
  the sum over `u < k` of `L (r, u) · R (u, c)` on the extended reals — for ANY dimension-numbers record whose operand
  indices have those coordinates (for a literal record each of the four facts is `fun _ _ => rfl`);
* `row_max_apply`, `row_sum_apply`: a maximum (from its starting value) and a sum along the columns of an `[a, b]`
  array, at row `r`, as a fold and a sum over the column index.
-/

noncomputable section

open scoped BigOperators

namespace Cert.DenseRows

open Idealize.ShloMosaic Idealize.ShloMosaic.ValueIdx

variable {α : Type}

/-- A vector re-laid as a column: entry `(r, 0)` of the column is entry `r` of the vector. -/
theorem col_cast_apply {a : ℕ} (v : (⟨1, ![a]⟩ : Shape).Idx → α) (h : (⟨1, ![a]⟩ : Shape).ShapeCasts ⟨2, ![a, 1]⟩)
    (r : Fin a) : shapeCast ⟨2, ![a, 1]⟩ v h (ix2 r (0 : Fin 1)) = v (ix1 r) := by
  refine shapeCast_apply v h (ix2 r (0 : Fin 1)) (ix1 r) ?_
  rw [Shape.rowMajor_val_one, Shape.rowMajor_val_two]
  show r.val = r.val * 1 + 0
  omega

/-- A column repeated along the columns: entry `(r, c)` is the column's entry `(r, 0)`. -/
theorem col_bcast_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A matrix product accumulated into zero, at `(r, c)`: the sum over the shared extent of the products of row `r` of the
    left factor and column `c` of the right one. -/
theorem matmul_rows_apply {a k b : ℕ} {φ₁ φ₂ : FTy}
    (D : DotDims ⟨2, ![a, k]⟩ ⟨2, ![k, b]⟩ ⟨2, ![a, b]⟩) (hr : D.contr.rank = 1) (hs : D.contr.size ⟨0, by omega⟩ = k)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (L : FVec Ideal ⟨2, ![a, k]⟩ φ₁) (R : FVec Ideal ⟨2, ![k, b]⟩ φ₂) (r : Fin a) (c : Fin b) :
    FloatOps.matmul D prec L R (constant ⟨2, ![a, b]⟩ .f32 0x00000000#32) (ix2 r c)
      = ∑ u : Fin k, L (ix2 r u) * R (ix2 u c) := by
  rw [Ideal.matmul_constant_zero_apply, ← Equiv.sum_comp (contrEquiv1 D k hr hs).symm]
  refine Finset.sum_congr rfl fun u _ => ?_
  have hL : D.lhsIdx (ix2 r c) ((contrEquiv1 D k hr hs).symm u) = ix2 r u := by
    funext ax
    match ax with
    | ⟨0, _⟩ => exact Fin.ext (hl0 _ _)
    | ⟨1, _⟩ => exact Fin.ext ((hl1 _ _).trans (contrEquiv1_symm_val D k hr hs u))
  have hR : D.rhsIdx (ix2 r c) ((contrEquiv1 D k hr hs).symm u) = ix2 u c := by
    funext ax
    match ax with
    | ⟨0, _⟩ => exact Fin.ext ((hr0 _ _).trans (contrEquiv1_symm_val D k hr hs u))
    | ⟨1, _⟩ => exact Fin.ext (hr1 _ _)
  rw [hL, hR]

/-- The maximum along the columns of an `[a, b]` array at row `r`: the fold of `max` from the starting value over the
    column index. -/
theorem row_max_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (FloatOps.ofBits φ acc) (fun c => src (ix2 r c)) := by
  refine (Ideal.multiReduction_maximumf_single src acc h hφ hacc (ix1 r)).trans ?_
  refine congrArg (fun g => (Finset.univ : Finset (Fin b)).fold max (FloatOps.ofBits φ acc) g) (funext fun c => ?_)
  refine congrArg src (funext fun ax => ?_)
  match ax with
  | ⟨0, _⟩ => rfl
  | ⟨1, _⟩ => rfl

/-- The sum along the columns of an `[a, b]` array at row `r`: the sum over the column index. -/
theorem row_sum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => ?_)
  match ax with
  | ⟨0, _⟩ => rfl
  | ⟨1, _⟩ => rfl

end Cert.DenseRows

end
-- ==== Proof.LayerSpec.lean ====
/-
  One layer of edge-to-node message passing, written as one function of its arrays, entry by entry, on the
  extended reals.

  Every edge carries a feature row and names a target node. Two arrays summarise the edges per node: `A`, the sum of
  the feature rows of the edges that point at a node, and `C`, the number of those edges. The layer then computes, for
  node `r`:

    * the mean of the incoming rows, `A r j / max (C r) 1` (a node with no incoming edge keeps the zero row);
    * a hidden row: the mean row and the node's own feature row, set side by side as one row of length 64 + 256,
      multiplied by the weight matrix `W1`, plus the bias `b1`, negative entries replaced by zero;
    * the output row: the hidden row multiplied by `W2`, plus the bias `b2`.

  The product of the joined row with `W1` is written here already split: the contraction over the first 64 rows of
  `W1` against the mean row, plus the contraction over its last 256 rows against the node's own row. A sum over
  an index set of 64 + 256 elements is the sum over the first 64 plus the sum over the last 256 in any commutative
  additive monoid, so nothing about the entries being finite is needed.

  The numbers one and zero are kept as the 32-bit words both programs spell them with.
-/
import Idealize.ShloMosaic.PureOps.Ideal
import Idealize.ShloMosaic.Lib.ValueIdx

noncomputable section

namespace Cert.EdgeMlp

open Idealize.ShloMosaic Idealize.ShloMosaic.ValueIdx

/-- The word of the float one, read on the extended reals. -/
abbrev oneW : EReal := Ideal.ofBits .f32 0x3F800000#32
/-- The word of the float zero, read on the extended reals. -/
abbrev zeroW : EReal := Ideal.ofBits .f32 0x00000000#32

/-- Entry `j` of the mean of the feature rows arriving at node `r`: the summed row divided by the larger of the
    edge count and one. -/
def meanAgg (A : (⟨2, ![50000, 64]⟩ : Shape).Idx → EReal) (C : (⟨1, ![50000]⟩ : Shape).Idx → EReal)
    (r : Fin 50000) (j : Fin 64) : EReal :=
  Ideal.div (A (ix2 r j)) (max (C (ix1 r)) oneW)

/-- Entry `k` of the hidden row of node `r`: the mean row against the first 64 rows of `W1`, plus the node's own row
    against the last 256 rows, plus the bias, cut off below at zero. -/
def hidden (node : (⟨2, ![50000, 256]⟩ : Shape).Idx → EReal) (A : (⟨2, ![50000, 64]⟩ : Shape).Idx → EReal)
    (C : (⟨1, ![50000]⟩ : Shape).Idx → EReal) (W1 : (⟨2, ![320, 512]⟩ : Shape).Idx → EReal)
    (b1 : (⟨1, ![512]⟩ : Shape).Idx → EReal) (r : Fin 50000) (k : Fin 512) : EReal :=
  max (((∑ j : Fin 64, meanAgg A C r j * W1 (ix2 (Fin.castAdd 256 j : Fin 320) k))
        + ∑ j : Fin 256, node (ix2 r j) * W1 (ix2 (Fin.natAdd 64 j : Fin 320) k))
      + b1 (ix1 k)) zeroW

/-- Entry `(r, c)` of the layer's output: the hidden row of node `r` against column `c` of `W2`, plus the bias. -/
def outAt (node : (⟨2, ![50000, 256]⟩ : Shape).Idx → EReal) (A : (⟨2, ![50000, 64]⟩ : Shape).Idx → EReal)
    (C : (⟨1, ![50000]⟩ : Shape).Idx → EReal) (W1 : (⟨2, ![320, 512]⟩ : Shape).Idx → EReal)
    (b1 : (⟨1, ![512]⟩ : Shape).Idx → EReal) (W2 : (⟨2, ![512, 256]⟩ : Shape).Idx → EReal)
    (b2 : (⟨1, ![256]⟩ : Shape).Idx → EReal) (r : Fin 50000) (c : Fin 256) : EReal :=
  (∑ k : Fin 512, hidden node A C W1 b1 r k * W2 (ix2 k c)) + b2 (ix1 c)

/-- The layer's output as an array. -/
def out (node : (⟨2, ![50000, 256]⟩ : Shape).Idx → EReal) (A : (⟨2, ![50000, 64]⟩ : Shape).Idx → EReal)
    (C : (⟨1, ![50000]⟩ : Shape).Idx → EReal) (W1 : (⟨2, ![320, 512]⟩ : Shape).Idx → EReal)
    (b1 : (⟨1, ![512]⟩ : Shape).Idx → EReal) (W2 : (⟨2, ![512, 256]⟩ : Shape).Idx → EReal)
    (b2 : (⟨1, ![256]⟩ : Shape).Idx → EReal) : (⟨2, ![50000, 256]⟩ : Shape).Idx → EReal :=
  fun i => outAt node A C W1 b1 W2 b2 (i 0) (i 1)

/-- The array read at the entry built from a row and a column. -/
theorem out_ix2 (node : (⟨2, ![50000, 256]⟩ : Shape).Idx → EReal) (A : (⟨2, ![50000, 64]⟩ : Shape).Idx → EReal)
    (C : (⟨1, ![50000]⟩ : Shape).Idx → EReal) (W1 : (⟨2, ![320, 512]⟩ : Shape).Idx → EReal)
    (b1 : (⟨1, ![512]⟩ : Shape).Idx → EReal) (W2 : (⟨2, ![512, 256]⟩ : Shape).Idx → EReal)
    (b2 : (⟨1, ![256]⟩ : Shape).Idx → EReal) (r : Fin 50000) (c : Fin 256) :
    out node A C W1 b1 W2 b2 (ix2 r c) = outAt node A C W1 b1 W2 b2 r c := rfl

end Cert.EdgeMlp

end
-- ==== Proof.KernelBlock.lean ====
/-
  What the kernel's body computes on one block of 2000 nodes, read at one entry.

  The body receives, for its block, the 2000 summed feature rows (`agg`), the nodes' own rows (`nodeB`), the edge
  counts as a column (`cnt`), the two bands of the first weight matrix (`w1e`: 64 rows, `w1n`: 256 rows), the bias rows
  and the second weight matrix. It divides each summed row by the larger of its count and one, multiplies the result
  by the first band and the nodes' rows by the second, adds the two products and the bias, replaces negative entries by
  zero, multiplies by the second matrix and adds the second bias. A change of float format is the identity on the
  extended reals, and a product accumulated into the zero matrix is, at (p, k), the sum over the shared index of the
  products of row p of the left factor and column k of the right one.
-/
import proofs.«122957_j82162724372841_2_alg».proof.Proof.Gen.KernelIdeal.Frame
import proofs.«122957_j82162724372841_2_alg».proof.Proof.LibDenseRows
import proofs.«122957_j82162724372841_2_alg».proof.Proof.LayerSpec
import Idealize.ShloMosaic.Lib.ValueIdx
import Idealize.ShloMosaic.Lib.ValueLayout
import Idealize.ShloMosaic.Lib.Pipeline.Value

noncomputable section

namespace Cert.EdgeMlp

open Idealize.ShloMosaic Idealize.ShloMosaic.ValueIdx Cert.KernelIdeal Cert.KernelIdeal.Gen

/-- The product with the first band of `W1`, at (p, k): a sum over the band's 64 rows. -/
theorem band64_apply (L : FVec Ideal S2000x64 .bf16) (R : FVec Ideal S64x512 .bf16) (p : Fin 2000) (k : Fin 512) :
    matmul dot_S2000x64_S64x512_S2000x512_1_0_0_1_n_n none L R (constant (F := Ideal) S2000x512 .f32 0x00000000#32) (ix2 p k)
      = ∑ j : Fin 64, L (ix2 p j) * R (ix2 j k) :=
  Cert.DenseRows.matmul_rows_apply dot_S2000x64_S64x512_S2000x512_1_0_0_1_n_n rfl rfl
    (fun _ _ => rfl) (fun _ _ => rfl) (fun _ _ => rfl) (fun _ _ => rfl) none L R p k

/-- The product with the second band of `W1`, at (p, k): a sum over the band's 256 rows. -/
theorem band256_apply (L : FVec Ideal S2000x256 .bf16) (R : FVec Ideal S256x512 .bf16) (p : Fin 2000) (k : Fin 512) :
    matmul dot_S2000x256_S256x512_S2000x512_1_0_0_1_n_n none L R (constant (F := Ideal) S2000x512 .f32 0x00000000#32) (ix2 p k)
      = ∑ j : Fin 256, L (ix2 p j) * R (ix2 j k) :=
  Cert.DenseRows.matmul_rows_apply dot_S2000x256_S256x512_S2000x512_1_0_0_1_n_n rfl rfl
    (fun _ _ => rfl) (fun _ _ => rfl) (fun _ _ => rfl) (fun _ _ => rfl) none L R p k

/-- The product with `W2`, at (p, q): a sum over the 512 hidden entries. -/
theorem second_apply (L : FVec Ideal S2000x512 .bf16) (R : FVec Ideal S512x256 .bf16) (p : Fin 2000) (q : Fin 256) :
    matmul dot_S2000x512_S512x256_S2000x256_1_0_0_1_n_n none L R (constant (F := Ideal) S2000x256 .f32 0x00000000#32) (ix2 p q)
      = ∑ k : Fin 512, L (ix2 p k) * R (ix2 k q) :=
  Cert.DenseRows.matmul_rows_apply dot_S2000x512_S512x256_S2000x256_1_0_0_1_n_n rfl rfl
    (fun _ _ => rfl) (fun _ _ => rfl) (fun _ _ => rfl) (fun _ _ => rfl) none L R p q

/-- The count column repeated along the 64 feature columns reads the column's entry of the same row. -/
theorem countCols_apply (v : FVec Ideal S2000x1 .f32) (h : S2000x1.Broadcasts S2000x64) (p : Fin 2000) (j : Fin 64) :
    broadcastTo S2000x64 v h (ix2 p j) = v (ix2 p (0 : Fin 1)) :=
  Cert.DenseRows.col_bcast_apply v h p j

/-- The first bias row repeated over the block's rows reads the row's entry of the same column. -/
theorem biasRows512_apply (v : FVec Ideal S1x512 .f32) (h : S1x512.Broadcasts S2000x512) (p : Fin 2000) (k : Fin 512) :
    broadcastTo S2000x512 v h (ix2 p k) = v (ix2 (0 : Fin 1) k) :=
  broadcastTo_1b_ab_apply v h p k

/-- The second bias row likewise. -/
theorem biasRows256_apply (v : FVec Ideal S1x256 .f32) (h : S1x256.Broadcasts S2000x256) (p : Fin 2000) (q : Fin 256) :
    broadcastTo S2000x256 v h (ix2 p q) = v (ix2 (0 : Fin 1) q) :=
  broadcastTo_1b_ab_apply v h p q

/-- Entry (p, q) of what the body computes from its eight blocks: the layer's output entry for the block's row p, with
    the block's rows in place of the arrays' rows. -/
def blockOutAt (agg : Vec Ideal S2000x64 .f32) (nodeB : Vec Ideal S2000x256 .f32) (cnt : Vec Ideal S2000x1 .f32)
    (w1e : Vec Ideal S64x512 .bf16) (w1n : Vec Ideal S256x512 .bf16) (bias1 : Vec Ideal S1x512 .f32)
    (w2 : Vec Ideal S512x256 .bf16) (bias2 : Vec Ideal S1x256 .f32) (p : Fin 2000) (q : Fin 256) : EReal :=
  (∑ k : Fin 512,
      max (((∑ j : Fin 64, Ideal.div (agg (ix2 p j)) (max (cnt (ix2 p (0 : Fin 1))) oneW) * w1e (ix2 j k))
            + ∑ j : Fin 256, nodeB (ix2 p j) * w1n (ix2 j k))
          + bias1 (ix2 (0 : Fin 1) k)) zeroW
        * w2 (ix2 k q))
    + bias2 (ix2 (0 : Fin 1) q)

/-- The body's stored value at entry (p, q) of its block, from the blocks it loads. -/
theorem payload_apply (cnt : Vec Ideal S2000x1 .f32) (agg : Vec Ideal S2000x64 .f32) (nodeB : Vec Ideal S2000x256 .f32)
    (w1e : Vec Ideal S64x512 .bf16) (w1n : Vec Ideal S256x512 .bf16) (bias1 : Vec Ideal S1x512 .f32)
    (w2 : Vec Ideal S512x256 .bf16) (bias2 : Vec Ideal S1x256 .f32) (p : Fin 2000) (q : Fin 256) :
    k0_pay1 (F := Ideal) cnt agg nodeB w1e w1n bias1 w2 bias2 (ix2 p q)
      = blockOutAt agg nodeB cnt w1e w1n bias1 w2 bias2 p q := by
  unfold k0_pay1 blockOutAt
  simp only [addf_apply, second_apply, truncf_apply, maximumf_apply, band64_apply, band256_apply, divf_apply,
    shapeCast_self, broadcast_apply, countCols_apply, biasRows512_apply, biasRows256_apply]
  rfl

theorem zero_offsets : (![0, 0] : Fin 2 → Nat) = fun _ => 0 := funext fun a => by fin_cases a <;> rfl

/-- What the body leaves in its output block, at entry (p, q): its one store covers the block, and each of its loads reads a
    whole block. -/
theorem out_apply (x0 : Vec Ideal S2000x64 .f32) (x1 : Vec Ideal S2000x256 .f32) (x2 : Vec Ideal S2000x1 .f32)
    (x3 : Vec Ideal S64x512 .bf16) (x4 : Vec Ideal S256x512 .bf16) (x5 : Vec Ideal S1x512 .f32)
    (x6 : Vec Ideal S512x256 .bf16) (x7 : Vec Ideal S1x256 .f32) (p : Fin 2000) (q : Fin 256) :
    out0_8 (F := Ideal) x0 x1 x2 x3 x4 x5 x6 x7 (ix2 p q) = blockOutAt x0 x1 x2 x3 x4 x5 x6 x7 p q := by
  unfold out0_8
  rw [View.canon_unit_zero zero_offsets]
  simp only [View.ld_unit_zero (S := S2000x1) zero_offsets, View.ld_unit_zero (S := S2000x64) zero_offsets,
    View.ld_unit_zero (S := S2000x256) zero_offsets, View.ld_unit_zero (S := S64x512) zero_offsets,
    View.ld_unit_zero (S := S256x512) zero_offsets, View.ld_unit_zero (S := S1x512) zero_offsets,
    View.ld_unit_zero (S := S512x256) zero_offsets, View.ld_unit_zero (S := S1x256) zero_offsets]
  exact payload_apply x2 x0 x1 x3 x4 x5 x6 x7 p q

end Cert.EdgeMlp

end
-- ==== Proof.PreparedOperands.lean ====
/-
  The operands the program prepares before the kernel is launched, read at an entry.

  The two per-node summaries of the edges are scatter-additions along the target column of the edge list: the summed
  feature rows and the edge counts. The counts are re-laid as a column, the first weight matrix is cut into its first 64
  and its last 256 rows, and the two bias vectors are re-laid as rows. A change of float format is the identity on the
  extended reals, so each prepared operand is an input, or a summary of the edges, read at a shifted or re-laid entry.
-/
import proofs.«122957_j82162724372841_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option Elab.async false

noncomputable section

namespace Cert.EdgeMlp

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ)

/-! ## The two summaries of the edges -/

/-- The summed feature rows: from the zero matrix, every edge's feature row added into the row its target names. -/
def aggOf (edges : (⟨S2x800000, .i32⟩ : BufTy).Contents (Elt Ideal)) (feat : (⟨S800000x64, .f32⟩ : BufTy).Contents (Elt Ideal)) :
    (⟨S50000x64, .f32⟩ : BufTy).Contents (Elt Ideal) :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0
      (shapeCast _ (extractStridedSlice S1x800000 ![1, 0] edges slices_S2x800000_S1x800000_1_0) shapeCasts_S1x800000_S800000))
    feat

/-- The edge counts: from the zero vector, a one added at the entry each edge's target names. -/
def cntOf (edges : (⟨S2x800000, .i32⟩ : BufTy).Contents (Elt Ideal)) : (⟨S50000, .f32⟩ : BufTy).Contents (Elt Ideal) :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0
      (shapeCast _ (extractStridedSlice S1x800000 ![1, 0] edges slices_S2x800000_S1x800000_1_0) shapeCasts_S1x800000_S800000))
    (broadcastInDim S800000 ![] bcast_S_S800000 (constant (F := Ideal) S_ .f32 0x3F800000#32))

/-! ## The prepared operands, read at an entry -/

/-- The first operand is the summed feature rows. -/
theorem V_agg (c : Dev nD) :
    (V m c main_v4 : S50000x64.Idx → EReal) = aggOf (m ((c : Thread nD τ).loc main_arg1)) (m ((c : Thread nD τ).loc main_arg2)) := by
  dsimp only [V, hostOps0]; after_results <;> rfl

/-- The count column at (r, 0) is the count of node r. -/
theorem V_cnt_apply (c : Dev nD) (r : Fin 50000) :
    (V m c main_v9 : S50000x1.Idx → EReal) (ix2 r (0 : Fin 1)) = cntOf (m ((c : Thread nD τ).loc main_arg1)) (ix1 r) := by
  have e : (V m c main_v9 : S50000x1.Idx → EReal)
      = broadcastInDim S50000x1 ![0] bcast_S50000_S50000x1_0 (cntOf (m ((c : Thread nD τ).loc main_arg1))) := by
    dsimp only [V, hostOps0]; after_results <;> rfl
  rw [e]
  exact broadcastInDim_apply _ bcast_S50000_S50000x1_0 _ _ (ix1 r) (fun a => match a with
    | ⟨0, _⟩ => by show r.val = if (50000 : Nat) = 1 then 0 else r.val; rw [if_neg (by decide)])

/-- The first band of the first weight matrix: its rows 0 … 63. -/
theorem V_w1e_apply (c : Dev nD) (j : Fin 64) (k : Fin 512) :
    (V m c main_v11 : S64x512.Idx → EReal) (ix2 j k) = (m ((c : Thread nD τ).loc main_arg3)) (ix2 (Fin.castAdd 256 j : Fin 320) k) := by
  have e : (V m c main_v11 : S64x512.Idx → EReal)
      = truncf (F := Ideal) .bf16 (extractStridedSlice S64x512 ![0, 0] (m ((c : Thread nD τ).loc main_arg3)) slices_S320x512_S64x512_0_0) bitsLt_bf16_f32 := by
    dsimp only [V, hostOps0]; after_results <;> rfl
  rw [e]
  exact slice2_axis0_apply 0 _ slices_S320x512_S64x512_0_0 j k (Fin.castAdd 256 j : Fin 320) (Nat.zero_add _).symm

/-- The second band of the first weight matrix: its rows 64 … 319. -/
theorem V_w1n_apply (c : Dev nD) (j : Fin 256) (k : Fin 512) :
    (V m c main_v13 : S256x512.Idx → EReal) (ix2 j k) = (m ((c : Thread nD τ).loc main_arg3)) (ix2 (Fin.natAdd 64 j : Fin 320) k) := by
  have e : (V m c main_v13 : S256x512.Idx → EReal)
      = truncf (F := Ideal) .bf16 (extractStridedSlice S256x512 ![64, 0] (m ((c : Thread nD τ).loc main_arg3)) slices_S320x512_S256x512_64_0) bitsLt_bf16_f32 := by
    dsimp only [V, hostOps0]; after_results <;> rfl
  rw [e]
  exact slice2_axis0_apply 64 _ slices_S320x512_S256x512_64_0 j k (Fin.natAdd 64 j : Fin 320) rfl

/-- The second weight matrix, unchanged. -/
theorem V_w2 (c : Dev nD) :
    (V m c main_v14 : S512x256.Idx → EReal) = (m ((c : Thread nD τ).loc main_arg5)) := by
  have e : (V m c main_v14 : S512x256.Idx → EReal) = truncf (F := Ideal) .bf16 (m ((c : Thread nD τ).loc main_arg5)) bitsLt_bf16_f32 := by
    dsimp only [V, hostOps0]; after_results <;> rfl
  rw [e]; rfl

/-- The first bias as a row: entry (0, k) is entry k of the vector. -/
theorem V_b1_apply (c : Dev nD) (k : Fin 512) :
    (V m c main_v15 : S1x512.Idx → EReal) (ix2 (0 : Fin 1) k) = (m ((c : Thread nD τ).loc main_arg4)) (ix1 k) := by
  have e : (V m c main_v15 : S1x512.Idx → EReal) = broadcastInDim S1x512 ![1] bcast_S512_S1x512_1 (m ((c : Thread nD τ).loc main_arg4)) := by
    dsimp only [V, hostOps0]; after_results <;> rfl
  rw [e]
  exact broadcastInDim_apply _ bcast_S512_S1x512_1 _ _ (ix1 k) (fun a => match a with
    | ⟨0, _⟩ => by show k.val = if (512 : Nat) = 1 then 0 else k.val; rw [if_neg (by decide)])

/-- The second bias as a row. -/
theorem V_b2_apply (c : Dev nD) (q : Fin 256) :
    (V m c main_v16 : S1x256.Idx → EReal) (ix2 (0 : Fin 1) q) = (m ((c : Thread nD τ).loc main_arg6)) (ix1 q) := by
  have e : (V m c main_v16 : S1x256.Idx → EReal) = broadcastInDim S1x256 ![1] bcast_S256_S1x256_1 (m ((c : Thread nD τ).loc main_arg6)) := by
    dsimp only [V, hostOps0]; after_results <;> rfl
  rw [e]
  exact broadcastInDim_apply _ bcast_S256_S1x256_1 _ _ (ix1 q) (fun a => match a with
    | ⟨0, _⟩ => by show q.val = if (256 : Nat) = 1 then 0 else q.val; rw [if_neg (by decide)])

end Cert.EdgeMlp

end
-- ==== Proof.KernelArrays.lean ====
/-
  Each block the kernel's body loads, read at an entry.

  The grid has 25 points. At point `t` the blocks of the summed rows, of the nodes' own rows, of the count column
  and of the output are rows `2000 t … 2000 t + 1999` of their arrays; the weight and bias blocks are the whole arrays
  at every point. Combined with the prepared operands read at an entry, each block entry is an entry of an input array or
  of one of the two edge summaries.
-/
import proofs.«122957_j82162724372841_2_alg».proof.Proof.Gen.KernelIdeal.Frame
import proofs.«122957_j82162724372841_2_alg».proof.Proof.PreparedOperands
import Idealize.ShloMosaic.Lib.ValueIdx
import Idealize.ShloMosaic.Lib.Pipeline.Value

set_option Elab.async false

noncomputable section

namespace Cert.EdgeMlp

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-! ## The blocks -/

/-- The block index of every window at every point of the grid: the row-blocked windows sit at block row `t`, the
    weight and bias windows at block (0, 0). -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0) :=
  (by decide +kernel : ∀ t : Fin grid0.N, _)

/-- Row `p` of the block at point `t` is row `2000 t + p` of the array. -/
def blockRow (t : Fin cfg0.N) (p : Fin 2000) : Fin 50000 :=
  ⟨t.val * 2000 + p.val, by have ht := t.isLt; have hN : cfg0.N = 25 := N_0; have hp := p.isLt; omega⟩

/-- Row p of the summed-rows block at point t is row 2000 t + p of the summed rows. -/
theorem aggBlock_read (X : (⟨S50000x64, .f32⟩ : BufTy).Contents (Elt Ideal)) (t : Fin cfg0.N) (p : Fin 2000) (j : Fin 64) :
    ((cfg0.win 0).blk t).view.read (Elt Ideal) X (ix2 p j) = X (ix2 (blockRow t p) j) := by
  show X (((cfg0.win 0).blk t).view.emb (ix2 p j)) = _
  refine congrArg X (funext fun a => Fin.ext ?_)
  obtain ⟨⟨e0, e1⟩, -⟩ := index_facts t
  match a with
  | ⟨0, _⟩ => show win0_0.index t (0 : Fin 2) * 2000 + 1 * p.val = t.val * 2000 + p.val; rw [e0]; omega
  | ⟨1, _⟩ => show win0_0.index t (1 : Fin 2) * 64 + 1 * j.val = j.val; rw [e1]; omega

/-- Row p of the nodes' block at point t is row 2000 t + p of the nodes' own rows. -/
theorem nodeBlock_read (X : (⟨S50000x256, .f32⟩ : BufTy).Contents (Elt Ideal)) (t : Fin cfg0.N) (p : Fin 2000) (j : Fin 256) :
    ((cfg0.win 1).blk t).view.read (Elt Ideal) X (ix2 p j) = X (ix2 (blockRow t p) j) := by
  show X (((cfg0.win 1).blk t).view.emb (ix2 p j)) = _
  refine congrArg X (funext fun a => Fin.ext ?_)
  obtain ⟨-, ⟨e0, e1⟩, -⟩ := index_facts t
  match a with
  | ⟨0, _⟩ => show win0_1.index t (0 : Fin 2) * 2000 + 1 * p.val = t.val * 2000 + p.val; rw [e0]; omega
  | ⟨1, _⟩ => show win0_1.index t (1 : Fin 2) * 256 + 1 * j.val = j.val; rw [e1]; omega

/-- Entry p of the count block at point t is entry 2000 t + p of the count column. -/
theorem cntBlock_read (X : (⟨S50000x1, .f32⟩ : BufTy).Contents (Elt Ideal)) (t : Fin cfg0.N) (p : Fin 2000) :
    ((cfg0.win 2).blk t).view.read (Elt Ideal) X (ix2 p (0 : Fin 1)) = X (ix2 (blockRow t p) (0 : Fin 1)) := by
  show X (((cfg0.win 2).blk t).view.emb (ix2 p (0 : Fin 1))) = _
  refine congrArg X (funext fun a => Fin.ext ?_)
  obtain ⟨-, -, ⟨e0, e1⟩, -⟩ := index_facts t
  match a with
  | ⟨0, _⟩ => show win0_2.index t (0 : Fin 2) * 2000 + 1 * p.val = t.val * 2000 + p.val; rw [e0]; omega
  | ⟨1, _⟩ => show win0_2.index t (1 : Fin 2) * 1 + 1 * 0 = 0; rw [e1]

/-- The block of the first band of the first weight matrix is the whole band at every point. -/
theorem w1eBlock_read (X : (⟨S64x512, .bf16⟩ : BufTy).Contents (Elt Ideal)) (t : Fin cfg0.N) (j : Fin 64) (k : Fin 512) :
    ((cfg0.win 3).blk t).view.read (Elt Ideal) X (ix2 j k) = X (ix2 j k) := by
  show X (((cfg0.win 3).blk t).view.emb (ix2 j k)) = _
  refine congrArg X (funext fun a => Fin.ext ?_)
  obtain ⟨-, -, -, ⟨e0, e1⟩, -⟩ := index_facts t
  match a with
  | ⟨0, _⟩ => show win0_3.index t (0 : Fin 2) * 64 + 1 * j.val = j.val; rw [e0]; omega
  | ⟨1, _⟩ => show win0_3.index t (1 : Fin 2) * 512 + 1 * k.val = k.val; rw [e1]; omega

/-- The block of the second band of the first weight matrix is the whole band at every point. -/
theorem w1nBlock_read (X : (⟨S256x512, .bf16⟩ : BufTy).Contents (Elt Ideal)) (t : Fin cfg0.N) (j : Fin 256) (k : Fin 512) :
    ((cfg0.win 4).blk t).view.read (Elt Ideal) X (ix2 j k) = X (ix2 j k) := by
  show X (((cfg0.win 4).blk t).view.emb (ix2 j k)) = _
  refine congrArg X (funext fun a => Fin.ext ?_)
  obtain ⟨-, -, -, -, ⟨e0, e1⟩, -⟩ := index_facts t
  match a with
  | ⟨0, _⟩ => show win0_4.index t (0 : Fin 2) * 256 + 1 * j.val = j.val; rw [e0]; omega
  | ⟨1, _⟩ => show win0_4.index t (1 : Fin 2) * 512 + 1 * k.val = k.val; rw [e1]; omega

/-- The block of the first bias row is the whole row at every point. -/
theorem b1Block_read (X : (⟨S1x512, .f32⟩ : BufTy).Contents (Elt Ideal)) (t : Fin cfg0.N) (k : Fin 512) :
    ((cfg0.win 5).blk t).view.read (Elt Ideal) X (ix2 (0 : Fin 1) k) = X (ix2 (0 : Fin 1) k) := by
  show X (((cfg0.win 5).blk t).view.emb (ix2 (0 : Fin 1) k)) = _
  refine congrArg X (funext fun a => Fin.ext ?_)
  obtain ⟨-, -, -, -, -, ⟨e0, e1⟩, -⟩ := index_facts t
  match a with
  | ⟨0, _⟩ => show win0_5.index t (0 : Fin 2) * 1 + 1 * 0 = 0; rw [e0]
  | ⟨1, _⟩ => show win0_5.index t (1 : Fin 2) * 512 + 1 * k.val = k.val; rw [e1]; omega

/-- The block of the second weight matrix is the whole matrix at every point. -/
theorem w2Block_read (X : (⟨S512x256, .bf16⟩ : BufTy).Contents (Elt Ideal)) (t : Fin cfg0.N) (k : Fin 512) (q : Fin 256) :
    ((cfg0.win 6).blk t).view.read (Elt Ideal) X (ix2 k q) = X (ix2 k q) := by
  show X (((cfg0.win 6).blk t).view.emb (ix2 k q)) = _
  refine congrArg X (funext fun a => Fin.ext ?_)
  obtain ⟨-, -, -, -, -, -, ⟨e0, e1⟩, -⟩ := index_facts t
  match a with
  | ⟨0, _⟩ => show win0_6.index t (0 : Fin 2) * 512 + 1 * k.val = k.val; rw [e0]; omega
  | ⟨1, _⟩ => show win0_6.index t (1 : Fin 2) * 256 + 1 * q.val = q.val; rw [e1]; omega

/-- The block of the second bias row is the whole row at every point. -/
theorem b2Block_read (X : (⟨S1x256, .f32⟩ : BufTy).Contents (Elt Ideal)) (t : Fin cfg0.N) (q : Fin 256) :
    ((cfg0.win 7).blk t).view.read (Elt Ideal) X (ix2 (0 : Fin 1) q) = X (ix2 (0 : Fin 1) q) := by
  show X (((cfg0.win 7).blk t).view.emb (ix2 (0 : Fin 1) q)) = _
  refine congrArg X (funext fun a => Fin.ext ?_)
  obtain ⟨-, -, -, -, -, -, -, ⟨e0, e1⟩, -⟩ := index_facts t
  match a with
  | ⟨0, _⟩ => show win0_7.index t (0 : Fin 2) * 1 + 1 * 0 = 0; rw [e0]
  | ⟨1, _⟩ => show win0_7.index t (1 : Fin 2) * 256 + 1 * q.val = q.val; rw [e1]; omega

/-- Entry (p, q) of the output block at point `t` is entry (2000 t + p, q) of the output array. -/
theorem outBlock_emb (t : Fin cfg0.N) (p : Fin 2000) (q : Fin 256) :
    ((cfg0.win 8).blk t).view.emb (ix2 p q) = (ix2 (blockRow t p) q : S50000x256.Idx) := by
  refine funext fun a => Fin.ext ?_
  obtain ⟨-, -, -, -, -, -, -, -, ⟨e0, e1⟩⟩ := index_facts t
  match a with
  | ⟨0, _⟩ => show win0_8.index t (0 : Fin 2) * 2000 + 1 * p.val = t.val * 2000 + p.val; rw [e0]; omega
  | ⟨1, _⟩ => show win0_8.index t (1 : Fin 2) * 256 + 1 * q.val = q.val; rw [e1]; omega

/-- An array read through the output block at point `t`, at entry (p, q), is the array at entry (2000 t + p, q). -/
theorem outBlock_read (G : (⟨S50000x256, .f32⟩ : BufTy).Contents (Elt Ideal)) (t : Fin cfg0.N) (p : Fin 2000) (q : Fin 256) :
    ((cfg0.win 8).blk t).view.read (Elt Ideal) G (ix2 p q) = G (ix2 (blockRow t p) q) := by
  show G (((cfg0.win 8).blk t).view.emb (ix2 p q)) = _
  rw [outBlock_emb]

/-- What a write-back takes from an output block's contents is the contents: the window is never cut short. -/
theorem outBlock_cut (X : S2000x256.Idx → EReal) (t : Fin cfg0.N) (p : Fin 2000) (q : Fin 256) :
    (cfg0.win 8).cut (grid0.coords t) X (ix2 p q) = X (ix2 p q) := rfl

/-! ## Each block entry as an entry of an input or of an edge summary -/

theorem aggBlock_eq (c : Dev nD) (t : Fin cfg0.N) (p : Fin 2000) (j : Fin 64) :
    iblk m c 0 t (ix2 p j) = aggOf (m ((c : Thread nD τ).loc main_arg1)) (m ((c : Thread nD τ).loc main_arg2)) (ix2 (blockRow t p) j) := by
  unfold iblk
  rw [aggBlock_read]
  exact congrFun (V_agg m c) _

theorem nodeBlock_eq (c : Dev nD) (t : Fin cfg0.N) (p : Fin 2000) (j : Fin 256) :
    iblk m c 1 t (ix2 p j) = (m ((c : Thread nD τ).loc main_arg0)) (ix2 (blockRow t p) j) := by
  unfold iblk
  rw [nodeBlock_read]
  exact congrFun (V_main_arg0 m c) _

theorem cntBlock_eq (c : Dev nD) (t : Fin cfg0.N) (p : Fin 2000) :
    iblk m c 2 t (ix2 p (0 : Fin 1)) = cntOf (m ((c : Thread nD τ).loc main_arg1)) (ix1 (blockRow t p)) := by
  unfold iblk
  rw [cntBlock_read]
  exact V_cnt_apply m c _

theorem w1eBlock_eq (c : Dev nD) (t : Fin cfg0.N) (j : Fin 64) (k : Fin 512) :
    iblk m c 3 t (ix2 j k) = (m ((c : Thread nD τ).loc main_arg3)) (ix2 (Fin.castAdd 256 j : Fin 320) k) := by
  unfold iblk
  rw [w1eBlock_read]
  exact V_w1e_apply m c j k

theorem w1nBlock_eq (c : Dev nD) (t : Fin cfg0.N) (j : Fin 256) (k : Fin 512) :
    iblk m c 4 t (ix2 j k) = (m ((c : Thread nD τ).loc main_arg3)) (ix2 (Fin.natAdd 64 j : Fin 320) k) := by
  unfold iblk
  rw [w1nBlock_read]
  exact V_w1n_apply m c j k

theorem b1Block_eq (c : Dev nD) (t : Fin cfg0.N) (k : Fin 512) :
    iblk m c 5 t (ix2 (0 : Fin 1) k) = (m ((c : Thread nD τ).loc main_arg4)) (ix1 k) := by
  unfold iblk
  rw [b1Block_read]
  exact V_b1_apply m c k

theorem w2Block_eq (c : Dev nD) (t : Fin cfg0.N) (k : Fin 512) (q : Fin 256) :
    iblk m c 6 t (ix2 k q) = (m ((c : Thread nD τ).loc main_arg5)) (ix2 k q) := by
  unfold iblk
  rw [w2Block_read]
  exact congrFun (V_w2 m c) _

theorem b2Block_eq (c : Dev nD) (t : Fin cfg0.N) (q : Fin 256) :
    iblk m c 7 t (ix2 (0 : Fin 1) q) = (m ((c : Thread nD τ).loc main_arg6)) (ix1 q) := by
  unfold iblk
  rw [b2Block_read]
  exact V_b2_apply m c q

end Cert.EdgeMlp

end
-- ==== Proof.KernelValue.lean ====
/-
  The kernel's output array after the run is the layer's function of the inputs and of the two edge summaries.

  At grid point `t` the body stores, at entry (p, q) of its output block, the layer's output entry (2000 t + p, q): each
  block it loads is the matching band of rows of its array (or the whole weight or bias array), so the body's sums are
  the layer's sums for node 2000 t + p. What point `t` writes back is therefore block `t` of the layer's output array.
  The 25 blocks of 2000 rows cover all 50000 rows (row r lies in block r / 2000), so the array ends holding the layer's
  output everywhere.
-/
import proofs.«122957_j82162724372841_2_alg».proof.Proof.Gen.KernelIdeal.Value
import proofs.«122957_j82162724372841_2_alg».proof.Proof.KernelBlock
import proofs.«122957_j82162724372841_2_alg».proof.Proof.KernelArrays
import proofs.«122957_j82162724372841_2_alg».proof.Proof.LayerSpec

noncomputable section

namespace Cert.EdgeMlp

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The layer's output computed from what core `c` was launched with. -/
def layerOut (c : Dev nD) : S50000x256.Idx → EReal :=
  out (m ((c : Thread nD τ).loc main_arg0)) (aggOf (m ((c : Thread nD τ).loc main_arg1)) (m ((c : Thread nD τ).loc main_arg2)))
    (cntOf (m ((c : Thread nD τ).loc main_arg1))) (m ((c : Thread nD τ).loc main_arg3)) (m ((c : Thread nD τ).loc main_arg4))
    (m ((c : Thread nD τ).loc main_arg5)) (m ((c : Thread nD τ).loc main_arg6))

/-- Entry (p, q) of what point `t` writes back is the layer's output entry (2000 t + p, q): the body's sums over its
    blocks' rows are the layer's sums for node 2000 t + p. -/
theorem flushed_apply (c : Dev nD) (t : Fin cfg0.N) (p : Fin 2000) (q : Fin 256) :
    (dats m 0 c).flushed 8 t (ix2 p q) = layerOut m c (ix2 (blockRow t p) q) := by
  rw [Cert.KernelIdeal.Value.flushed8, outBlock_cut, out_apply]
  unfold blockOutAt
  simp only [aggBlock_eq, nodeBlock_eq, cntBlock_eq, w1eBlock_eq, w1nBlock_eq, b1Block_eq, w2Block_eq, b2Block_eq]
  unfold layerOut
  rw [out_ix2]
  unfold outAt hidden meanAgg
  rfl

/-- What point `t` writes back is block `t` of the layer's output. -/
theorem flushed_eq (c : Dev nD) (t : Fin cfg0.N) :
    (dats m 0 c).flushed 8 t = ((cfg0.win 8).blk t).view.read (Elt Ideal) (layerOut m c) := by
  funext y
  obtain ⟨p, q, rfl⟩ : ∃ (p : Fin 2000) (q : Fin 256), y = ix2 p q := ⟨y 0, y 1, eq_ix2 y⟩
  rw [outBlock_read]
  exact flushed_apply m c t p q

/-- An entry lies in point `t`'s output block exactly when each coordinate lies in the block's range. -/
theorem mem_blk (t : Fin cfg0.N) (i : S50000x256.Idx) :
    i ∈ ((cfg0.win 8).blk t).view.set ↔ ∀ a : Fin 2, win0_8.index t a * S2000x256.size a ≤ (i a).val
      ∧ (i a).val < win0_8.index t a * S2000x256.size a + S2000x256.size a := by
  show i ∈ ((View.whole main_v17).slice (win0_8.rect t)).set ↔ _
  rw [View.set_slice_whole, Rect.mem_set_unit]
  exact Iff.rfl

/-- Every entry of the output array lies in the block of the point numbered by its row divided by 2000. -/
theorem cover (i : S50000x256.Idx) :
    ∃ t : Fin cfg0.N, (cfg0.win 8).flush t = true ∧ i ∈ ((cfg0.win 8).blk t).view.set := by
  have hi0 : (i 0).val < 50000 := (i 0).isLt
  have hi1 : (i 1).val < 256 := (i 1).isLt
  have hN : cfg0.N = 25 := N_0
  have ht : (i 0).val / 2000 < cfg0.N := by rw [hN]; omega
  obtain ⟨-, -, -, -, -, -, -, -, ⟨e0, e1⟩⟩ := index_facts ⟨(i 0).val / 2000, ht⟩
  refine ⟨⟨(i 0).val / 2000, ht⟩, flush0_8 _, ?_⟩
  rw [mem_blk]
  intro a
  match a with
  | ⟨0, _⟩ =>
    show win0_8.index ⟨(i 0).val / 2000, ht⟩ (0 : Fin 2) * 2000 ≤ (i 0).val
      ∧ (i 0).val < win0_8.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_8.index ⟨(i 0).val / 2000, ht⟩ (1 : Fin 2) * 256 ≤ (i 1).val
      ∧ (i 1).val < win0_8.index ⟨(i 0).val / 2000, ht⟩ (1 : Fin 2) * 256 + 256
    rw [e1]
    omega

/-- The output array after the run is the layer's output. -/
theorem final (c : Dev nD) : (dats m 0 c).arrAt 8 cfg0.N = layerOut m c :=
  (dats m 0 c).arrAt_eq_of_cover 8 (layerOut m c) (fun t _ => flushed_eq m c t) cover

/-- The kernel's run: it terminates without fault, its result is the layer's output and its arguments are unchanged. -/
theorem run : θ_run defs (onTc (τ := τ) (main (F := Ideal))) ⟨m, fun _ => 0, ρ⟩ fun r => ∀ c : Dev nD,
      r.2.mem ((c : Thread nD τ).loc main_v17) = layerOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.EdgeMlp

end
-- ==== Proof.ReferenceValue.lean ====
/-
  The reference's result, entry by entry, is the layer's function of the inputs and of the two edge summaries.

  The reference divides the summed feature rows by the larger of the count and one, sets the result and the nodes' own
  rows side by side as rows of length 320, multiplies by the first weight matrix, adds the bias, replaces negative
  entries by zero, multiplies by the second weight matrix and adds the second bias. Read at an entry, the product with
  the first weight matrix is a sum over 320 = 64 + 256 indices; that sum is the sum over the first 64 (where the joined
  row is the mean row) plus the sum over the last 256 (where it is the node's own row), which is how the layer's function
  is written.
-/
import proofs.«122957_j82162724372841_2_alg».proof.Proof.Gen.ReferenceIdeal.Read
import proofs.«122957_j82162724372841_2_alg».proof.Proof.LayerSpec
import Idealize.ShloMosaic.Lib.ValueIdx
import Idealize.ShloMosaic.Lib.Pipeline.Value
import Mathlib.Algebra.BigOperators.Fin

noncomputable section

namespace Cert.EdgeMlp.Ref

open Idealize.ShloMosaic Idealize.ShloMosaic.ValueIdx
open Cert.ReferenceIdeal Cert.ReferenceIdeal.Gen Cert.ReferenceIdeal.Read Cert.EdgeMlp

variable (x0 : (⟨S50000x256, .f32⟩ : BufTy).Contents (Elt Ideal)) (x1 : (⟨S2x800000, .i32⟩ : BufTy).Contents (Elt Ideal))
  (x2 : (⟨S800000x64, .f32⟩ : BufTy).Contents (Elt Ideal)) (x3 : (⟨S320x512, .f32⟩ : BufTy).Contents (Elt Ideal))
  (x4 : (⟨S512, .f32⟩ : BufTy).Contents (Elt Ideal)) (x5 : (⟨S512x256, .f32⟩ : BufTy).Contents (Elt Ideal))
  (x6 : (⟨S256, .f32⟩ : BufTy).Contents (Elt Ideal))

/-- The quotient stage at (r, j) is the mean of the rows arriving at node r. -/
theorem mean_apply (r : Fin 50000) (j : Fin 64) :
    val_main_v13 (F := Ideal) x1 x2 (ix2 r j)
      = meanAgg (val_main_v4 (F := Ideal) x1 x2) (val_main_v8 (F := Ideal) x1) r j := by
  rw [val_main_v13_apply, val_main_v12_apply, val_main_v11_apply, val_main_v10_apply, val_main_v9_apply,
    val_main_cst_2_apply]
  have hi : idx_main_v11 (idx_main_v12 (ix2 r j : S50000x64.Idx)) = ix1 r :=
    funext fun a => Fin.ext (by match a with | ⟨0, _⟩ => rfl)
  rw [hi]
  rfl

/-- The joined row, in its first 64 columns, is the mean row. -/
theorem joined_left (r : Fin 50000) (j : Fin 64) :
    val_main_v14 (F := Ideal) x0 x1 x2 (ix2 r (Fin.castAdd 256 j : Fin 320))
      = val_main_v13 (F := Ideal) x1 x2 (ix2 r j) := by
  unfold val_main_v14
  exact concatenate_pair_apply_left (t := S50000x320) (s₁ := S50000x64) (s₂ := S50000x256) (1 : Fin 2)
    (val_main_v13 (F := Ideal) x1 x2) x0 concatenates_S50000x64_S50000x256_S50000x320_d1
    (ix2 r (Fin.castAdd 256 j : Fin 320) : S50000x320.Idx) rfl (ix2 r j : S50000x64.Idx) (fun b => match b with
      | ⟨0, _⟩ => rfl
      | ⟨1, _⟩ => rfl)

/-- The joined row, in its last 256 columns, is the node's own row. -/
theorem joined_right (r : Fin 50000) (j : Fin 256) :
    val_main_v14 (F := Ideal) x0 x1 x2 (ix2 r (Fin.natAdd 64 j : Fin 320)) = x0 (ix2 r j) := by
  unfold val_main_v14
  exact concatenate_pair_apply_right (t := S50000x320) (s₁ := S50000x64) (s₂ := S50000x256) (1 : Fin 2)
    (val_main_v13 (F := Ideal) x1 x2) x0 concatenates_S50000x64_S50000x256_S50000x320_d1
    (ix2 r (Fin.natAdd 64 j : Fin 320) : S50000x320.Idx) rfl rfl (ix2 r j : S50000x256.Idx)
    (fun b hb => match b, hb with
      | ⟨0, _⟩, _ => rfl
      | ⟨1, _⟩, hb => absurd rfl hb)
    (by show j.val + 64 = 64 + j.val; omega)

/-- The contraction of the joined row with the first weight matrix: the mean row against the first 64 rows of the matrix
    plus the node's own row against its last 256 rows. -/
theorem joined_contraction (r : Fin 50000) (k : Fin 512) :
    (∑ u : Fin 320, val_main_v14 (F := Ideal) x0 x1 x2 (ix2 r u) * x3 (ix2 u k))
      = (∑ j : Fin 64, meanAgg (val_main_v4 (F := Ideal) x1 x2) (val_main_v8 (F := Ideal) x1) r j
            * x3 (ix2 (Fin.castAdd 256 j : Fin 320) k))
        + ∑ j : Fin 256, x0 (ix2 r j) * x3 (ix2 (Fin.natAdd 64 j : Fin 320) k) := by
  refine (Fin.sum_univ_add (a := 64) (b := 256)
    (fun u : Fin (64 + 256) => val_main_v14 (F := Ideal) x0 x1 x2 (ix2 r u) * x3 (ix2 u k))).trans ?_
  simp only [joined_left, joined_right, mean_apply]

/-- The hidden stage at (r, k) is the layer's hidden entry. -/
theorem hidden_apply (r : Fin 50000) (k : Fin 512) :
    val_main_v19 (F := Ideal) x0 x1 x2 x3 x4 (ix2 r k)
      = hidden x0 (val_main_v4 (F := Ideal) x1 x2) (val_main_v8 (F := Ideal) x1) x3 x4 r k := by
  rw [val_main_v19_apply, val_main_v18_apply, val_main_v15_apply, val_main_v17_apply, val_main_v16_apply,
    val_main_call0_v0_apply, val_main_call0_cst_apply]
  have hb : idx_main_v16 (idx_main_v17 (ix2 r k : S50000x512.Idx)) = ix1 k :=
    funext fun a => Fin.ext (by match a with | ⟨0, _⟩ => rfl)
  have hl : ∀ u : Fin 320, lidx_main_v15 (ix2 r k : S50000x512.Idx) u = ix2 r u := fun u =>
    funext fun a => Fin.ext (by match a with | ⟨0, _⟩ => rfl | ⟨1, _⟩ => rfl)
  have hr : ∀ u : Fin 320, ridx_main_v15 (ix2 r k : S50000x512.Idx) u = ix2 u k := fun u =>
    funext fun a => Fin.ext (by match a with | ⟨0, _⟩ => rfl | ⟨1, _⟩ => rfl)
  simp only [hb, hl, hr]
  rw [joined_contraction]
  rfl

/-- The result stage at (r, c) is the layer's output entry. -/
theorem result_apply (r : Fin 50000) (c : Fin 256) :
    val_main_v23 (F := Ideal) x0 x1 x2 x3 x4 x5 x6 (ix2 r c)
      = outAt x0 (val_main_v4 (F := Ideal) x1 x2) (val_main_v8 (F := Ideal) x1) x3 x4 x5 x6 r c := by
  rw [val_main_v23_apply, val_main_v20_apply, val_main_v22_apply, val_main_v21_apply]
  have hb : idx_main_v21 (idx_main_v22 (ix2 r c : S50000x256.Idx)) = ix1 c :=
    funext fun a => Fin.ext (by match a with | ⟨0, _⟩ => rfl)
  have hl : ∀ k : Fin 512, lidx_main_v20 (ix2 r c : S50000x256.Idx) k = ix2 r k := fun k =>
    funext fun a => Fin.ext (by match a with | ⟨0, _⟩ => rfl | ⟨1, _⟩ => rfl)
  have hr : ∀ k : Fin 512, ridx_main_v20 (ix2 r c : S50000x256.Idx) k = ix2 k c := fun k =>
    funext fun a => Fin.ext (by match a with | ⟨0, _⟩ => rfl | ⟨1, _⟩ => rfl)
  simp only [hb, hl, hr, hidden_apply]
  rfl

/-- The reference's result array is the layer's function of the inputs and the two edge summaries. -/
theorem result_eq :
    val_main_v23 (F := Ideal) x0 x1 x2 x3 x4 x5 x6
      = out x0 (val_main_v4 (F := Ideal) x1 x2) (val_main_v8 (F := Ideal) x1) x3 x4 x5 x6 := by
  funext i
  obtain ⟨r, c, rfl⟩ : ∃ (r : Fin 50000) (c : Fin 256), i = ix2 r c := ⟨i 0, i 1, eq_ix2 i⟩
  exact result_apply x0 x1 x2 x3 x4 x5 x6 r c

end Cert.EdgeMlp.Ref

end
-- ==== Proof.lean ====
/-
  A graph layer that sends edge features to nodes, computed two ways, gives the same result on the extended reals.

  The layer: every edge carries a row of 64 features and names a target node; each of the 50000 nodes has its own row of
  256 features. For every node the rows of the edges pointing at it are summed and divided by the larger of the number
  of such edges and one (their mean; a node without incoming edges keeps the zero row). The mean row and the node's own
  row, set side by side as a row of 320 entries, go through a linear map to 512 entries with a bias, negative entries
  are replaced by zero, and a second linear map with a bias gives the node's 256 output entries.

  The reference does exactly this on whole arrays. The kernel's program forms the two per-node summaries of the edges
  (the summed rows and the counts) by the same two scatter-additions, and then treats the nodes in 25 blocks of 2000:
  for a block it divides the summed rows by the clamped counts, multiplies the mean rows by the first 64 rows of the
  first weight matrix and the nodes' own rows by its last 256 rows, adds the two products and the bias, cuts off at zero,
  and applies the second linear map. The only differences are

    * the order of summation in the first linear map: one sum over 320 indices against a sum over the first 64 plus a
      sum over the last 256. These agree in every commutative additive monoid, hence on the extended reals with
      infinite entries allowed; the finiteness of the inputs is not used;
    * the tiling into blocks of rows, which does not change any entry, because every output entry depends on one node's
      rows only and the 25 blocks cover every node exactly once;
    * the passage of the operands of the products through a shorter float format, which is the identity on the
      extended reals.

  The two scatter-additions are the same operations applied to the same inputs in both programs, so they are carried
  along as two arrays and never opened.

  The modules: `LayerSpec` states the layer as one function of its arrays; `KernelBlock` reads the kernel body's stored
  value at an entry; `KernelArrays` reads the operands the program prepares, and the blocks cut from them, at an entry;
  `KernelValue` concludes that the kernel's output array is the layer's function; `ReferenceValue` that the reference's
  result is. Here the two are set side by side. The kernel's and the idealized kernel's runs (termination, no fault,
  arguments unchanged) are the generated frame theorems; the reference's is its generated run. Nothing was rewritten
  when the kernel was idealized, so the fourth claim is the trivial one.
-/
import proofs.«122957_j82162724372841_2_alg».proof.Defs
import proofs.«122957_j82162724372841_2_alg».proof.Proof.Gen.Kernel
import proofs.«122957_j82162724372841_2_alg».proof.Proof.Gen.Kernel.Skeleton
import proofs.«122957_j82162724372841_2_alg».proof.Proof.Gen.Kernel.Launch
import proofs.«122957_j82162724372841_2_alg».proof.Proof.Gen.Kernel.Points
import proofs.«122957_j82162724372841_2_alg».proof.Proof.Gen.Kernel.Frame
import proofs.«122957_j82162724372841_2_alg».proof.Proof.Gen.KernelIdeal
import proofs.«122957_j82162724372841_2_alg».proof.Proof.Gen.KernelIdeal.Skeleton
import proofs.«122957_j82162724372841_2_alg».proof.Proof.Gen.KernelIdeal.Launch
import proofs.«122957_j82162724372841_2_alg».proof.Proof.Gen.KernelIdeal.Points
import proofs.«122957_j82162724372841_2_alg».proof.Proof.Gen.KernelIdeal.Frame
import proofs.«122957_j82162724372841_2_alg».proof.Proof.Gen.ReferenceIdeal
import proofs.«122957_j82162724372841_2_alg».proof.Proof.Gen.Pre_finite_inputs
import proofs.«122957_j82162724372841_2_alg».proof.Proof.Gen.KernelIdeal.Value
import proofs.«122957_j82162724372841_2_alg».proof.Proof.Gen.ReferenceIdeal.Run
import proofs.«122957_j82162724372841_2_alg».proof.Proof.Gen.ReferenceIdeal.Read
import proofs.«122957_j82162724372841_2_alg».proof.Proof.KernelValue
import proofs.«122957_j82162724372841_2_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs to the end without fault and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the statement about its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Idealizing the kernel rewrote no operation. -/
theorem preserves : Cert.preserves_Kernel_KernelIdeal := trivial

/-- Both programs sum the edges' feature rows per target node by the same scatter-addition. -/
theorem summed_rows_same (edges : (⟨Cert.KernelIdeal.S2x800000, .i32⟩ : BufTy).Contents (Elt Ideal))
    (feat : (⟨Cert.KernelIdeal.S800000x64, .f32⟩ : BufTy).Contents (Elt Ideal)) :
    Cert.EdgeMlp.aggOf edges feat = Cert.ReferenceIdeal.Read.val_main_v4 (F := Ideal) edges feat := rfl

/-- Both programs count the edges per target node by the same scatter-addition. -/
theorem counts_same (edges : (⟨Cert.KernelIdeal.S2x800000, .i32⟩ : BufTy).Contents (Elt Ideal)) :
    Cert.EdgeMlp.cntOf edges = Cert.ReferenceIdeal.Read.val_main_v8 (F := Ideal) edges := rfl

/-- From memories that agree on the arguments, the idealized kernel and the idealized reference both end with the
    layer's output of those arguments as their result. -/
theorem algebraic : Cert.algebraic_KernelIdeal_ReferenceIdeal := by
  intro m ρ m' ρ' _ hagree
  refine ⟨_, Cert.EdgeMlp.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v23_eq, Cert.EdgeMlp.Ref.result_eq, h0, h1, h2, h3, h4, h5, h6]
  unfold Cert.EdgeMlp.layerOut
  rw [summed_rows_same, counts_same]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
